-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2000000 : Shape := ⟨2, ![2, 2000000]⟩
abbrev S2000000 : Shape := ⟨1, ![2000000]⟩
abbrev S100000x64 : Shape := ⟨2, ![100000, 64]⟩
abbrev S50000x64 : Shape := ⟨2, ![50000, 64]⟩
abbrev S_ : Shape := ⟨0, ![]⟩

class Facts : Prop where
  bcast_S_S2000000 : S_.BroadcastsInDim S2000000 (![] : Fin 0 → Fin S2000000.rank)
  reducesTo_S2000000_S_d0 : S2000000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S50000x64 : S_.BroadcastsInDim S50000x64 (![] : Fin 0 → Fin S50000x64.rank)
  reducesTo_S50000x64_S_d0_1 : S50000x64.ReducesTo [0, 1] S_

variable [Facts]

def fn {F : FTy → Type} [FloatOps F] (main_arg0 : IVec S2x2000000 32) (main_arg1 : FVec F S2000000 .f32) (main_arg2 : FVec F S100000x64 .f32) (main_arg3 : FVec F S50000x64 .f32) : IVec S_ 1 :=
  let main_v0 : FVec F S2000000 .f32 := Host.absf main_arg1
  let main_cst : FVec F S_ .f32 := constant S_ .f32 0x7F800000#32
  let main_v1 : FVec F S2000000 .f32 := broadcastInDim S2000000 ![] bcast_S_S2000000 main_cst
  let main_v2 : IVec S2000000 1 := cmpf .olt main_v0 main_v1
  let main_c : IVec S_ 1 := constantI S_ 1 1#1
  let main_v3 : IVec S_ 1 := (fun x v => Host.reduce IntOp.andi x v reducesTo_S2000000_S_d0 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S50000x64 .f32 := Host.absf main_arg3
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  main_v13
-- ==== Kernel.lean ====
abbrev S2x2000000 : Shape := ⟨2, ![2, 2000000]⟩
abbrev S2000000 : Shape := ⟨1, ![2000000]⟩
abbrev S100000x64 : Shape := ⟨2, ![100000, 64]⟩
abbrev S50000x64 : Shape := ⟨2, ![50000, 64]⟩
abbrev S1x2000000 : Shape := ⟨2, ![1, 2000000]⟩
abbrev S150000x64 : Shape := ⟨2, ![150000, 64]⟩
abbrev S_ : Shape := ⟨0, ![]⟩
abbrev S2000000x1 : Shape := ⟨2, ![2000000, 1]⟩
abbrev S2000000x64 : Shape := ⟨2, ![2000000, 64]⟩
abbrev S75000x128 : Shape := ⟨2, ![75000, 128]⟩
abbrev S5000x128 : Shape := ⟨2, ![5000, 128]⟩

abbrev nBuf : Space → Nat
  | .hbm => 71
  | .vmem => 18
  | .smem => 0
  | _ => 0

abbrev bufTy : (tb : Table) → Fin (tcTables nBuf tb) → BufTy
  | .hbm, ⟨0, _⟩ => ⟨S2x2000000, .i32⟩
  | .hbm, ⟨1, _⟩ => ⟨S2000000, .f32⟩
  | .hbm, ⟨2, _⟩ => ⟨S100000x64, .f32⟩
  | .hbm, ⟨3, _⟩ => ⟨S50000x64, .f32⟩
  | .hbm, ⟨4, _⟩ => ⟨S1x2000000, .i32⟩
  | .hbm, ⟨5, _⟩ => ⟨S2000000, .i32⟩
  | .hbm, ⟨6, _⟩ => ⟨S1x2000000, .i32⟩
  | .hbm, ⟨7, _⟩ => ⟨S2000000, .i32⟩
  | .hbm, ⟨8, _⟩ => ⟨S150000x64, .f32⟩
  | .hbm, ⟨9, _⟩ => ⟨S_, .i32⟩
  | .hbm, ⟨10, _⟩ => ⟨S2000000, .i32⟩
  | .hbm, ⟨11, _⟩ => ⟨S2000000, .i1⟩
  | .hbm, ⟨12, _⟩ => ⟨S_, .i32⟩
  | .hbm, ⟨13, _⟩ => ⟨S2000000, .i32⟩
  | .hbm, ⟨14, _⟩ => ⟨S2000000, .i32⟩
  | .hbm, ⟨15, _⟩ => ⟨S2000000, .i32⟩
  | .hbm, ⟨16, _⟩ => ⟨S2000000x1, .i32⟩
  | .hbm, ⟨17, _⟩ => ⟨S2000000x64, .f32⟩
  | .hbm, ⟨18, _⟩ => ⟨S2000000x1, .f32⟩
  | .hbm, ⟨19, _⟩ => ⟨S2000000x64, .f32⟩
  | .hbm, ⟨20, _⟩ => ⟨S2000000x64, .f32⟩
  | .hbm, ⟨21, _⟩ => ⟨S_, .f32⟩
  | .hbm, ⟨22, _⟩ => ⟨S150000x64, .f32⟩
  | .hbm, ⟨23, _⟩ => ⟨S2000000x1, .i32⟩
  | .hbm, ⟨24, _⟩ => ⟨S150000x64, .f32⟩
  | .hbm, ⟨25, _⟩ => ⟨S75000x128, .f32⟩
  | .hbm, ⟨26, _⟩ => ⟨S75000x128, .f32⟩
  | .hbm, ⟨27, _⟩ => ⟨S75000x128, .f32⟩
  | .hbm, ⟨28, _⟩ => ⟨S150000x64, .f32⟩
  | .hbm, ⟨29, _⟩ => ⟨S_, .i32⟩
  | .hbm, ⟨30, _⟩ => ⟨S2000000, .i32⟩
  | .hbm, ⟨31, _⟩ => ⟨S2000000, .i1⟩
  | .hbm, ⟨32, _⟩ => ⟨S_, .i32⟩
  | .hbm, ⟨33, _⟩ => ⟨S2000000, .i32⟩
  | .hbm, ⟨34, _⟩ => ⟨S2000000, .i32⟩
  | .hbm, ⟨35, _⟩ => ⟨S2000000, .i32⟩
  | .hbm, ⟨36, _⟩ => ⟨S2000000x1, .i32⟩
  | .hbm, ⟨37, _⟩ => ⟨S2000000x64, .f32⟩
  | .hbm, ⟨38, _⟩ => ⟨S2000000x1, .f32⟩
  | .hbm, ⟨39, _⟩ => ⟨S2000000x64, .f32⟩
  | .hbm, ⟨40, _⟩ => ⟨S2000000x64, .f32⟩
  | .hbm, ⟨41, _⟩ => ⟨S_, .f32⟩
  | .hbm, ⟨42, _⟩ => ⟨S150000x64, .f32⟩
  | .hbm, ⟨43, _⟩ => ⟨S2000000x1, .i32⟩
  | .hbm, ⟨44, _⟩ => ⟨S150000x64, .f32⟩
  | .hbm, ⟨45, _⟩ => ⟨S75000x128, .f32⟩
  | .hbm, ⟨46, _⟩ => ⟨S75000x128, .f32⟩
  | .hbm, ⟨47, _⟩ => ⟨S75000x128, .f32⟩
  | .hbm, ⟨48, _⟩ => ⟨S150000x64, .f32⟩
  | .hbm, ⟨49, _⟩ => ⟨S_, .i32⟩
  | .hbm, ⟨50, _⟩ => ⟨S2000000, .i32⟩
  | .hbm, ⟨51, _⟩ => ⟨S2000000, .i1⟩
  | .hbm, ⟨52, _⟩ => ⟨S_, .i32⟩
  | .hbm, ⟨53, _⟩ => ⟨S2000000, .i32⟩
  | .hbm, ⟨54, _⟩ => ⟨S2000000, .i32⟩
  | .hbm, ⟨55, _⟩ => ⟨S2000000, .i32⟩
  | .hbm, ⟨56, _⟩ => ⟨S2000000x1, .i32⟩
  | .hbm, ⟨57, _⟩ => ⟨S2000000x64, .f32⟩
  | .hbm, ⟨58, _⟩ => ⟨S2000000x1, .f32⟩
  | .hbm, ⟨59, _⟩ => ⟨S2000000x64, .f32⟩
  | .hbm, ⟨60, _⟩ => ⟨S2000000x64, .f32⟩
  | .hbm, ⟨61, _⟩ => ⟨S_, .f32⟩
  | .hbm, ⟨62, _⟩ => ⟨S150000x64, .f32⟩
  | .hbm, ⟨63, _⟩ => ⟨S2000000x1, .i32⟩
  | .hbm, ⟨64, _⟩ => ⟨S150000x64, .f32⟩
  | .hbm, ⟨65, _⟩ => ⟨S75000x128, .f32⟩
  | .hbm, ⟨66, _⟩ => ⟨S75000x128, .f32⟩
  | .hbm, ⟨67, _⟩ => ⟨S75000x128, .f32⟩
  | .hbm, ⟨68, _⟩ => ⟨S150000x64, .f32⟩
  | .hbm, ⟨69, _⟩ => ⟨S100000x64, .f32⟩
  | .hbm, ⟨70, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | _, _ => ⟨S2x2000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_4 : Ref sig .tc := ⟨.hbm, 49, rfl⟩
abbrev main_v39 : Ref sig .tc := ⟨.hbm, 50, rfl⟩
abbrev main_v40 : Ref sig .tc := ⟨.hbm, 51, rfl⟩
abbrev main_c_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![15], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![15], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  concatenates_S100000x64_S50000x64_S150000x64_d0 : Shape.Concatenates [S100000x64, S50000x64] S150000x64 0
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000x1_S2000000x64_0_1 : S2000000x1.BroadcastsInDim S2000000x64 (![0, 1] : Fin 2 → Fin S2000000x64.rank)
  bcast_S_S150000x64 : S_.BroadcastsInDim S150000x64 (![] : Fin 0 → Fin S150000x64.rank)
  shapeCasts_S150000x64_S75000x128 : S150000x64.ShapeCasts S75000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S75000x128_S150000x64 : S75000x128.ShapeCasts S150000x64
  slices_S150000x64_S100000x64_0_0 : S150000x64.Slices ![0, 0] S100000x64
  slices_S150000x64_S50000x64_100000_0 : S150000x64.Slices ![100000, 0] S50000x64
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S75000x128.size a
  hwx0_0 : ∀ i : grid0.Coords, EltTy.bits .f32 = 32 ∨ (Rect.block (s := S75000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S75000x128.size a
  hwx0_1 : ∀ i : grid0.Coords, EltTy.bits .f32 = 32 ∨ (Rect.block (s := S75000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S75000x128.size a
  hwx0_2 : ∀ i : grid0.Coords, EltTy.bits .f32 = 32 ∨ (Rect.block (s := S75000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S75000x128.size a
  hwx1_0 : ∀ i : grid1.Coords, EltTy.bits .f32 = 32 ∨ (Rect.block (s := S75000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S75000x128.size a
  hwx1_1 : ∀ i : grid1.Coords, EltTy.bits .f32 = 32 ∨ (Rect.block (s := S75000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S75000x128.size a
  hwx1_2 : ∀ i : grid1.Coords, EltTy.bits .f32 = 32 ∨ (Rect.block (s := S75000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S75000x128.size a
  hwx2_0 : ∀ i : grid2.Coords, EltTy.bits .f32 = 32 ∨ (Rect.block (s := S75000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S75000x128.size a
  hwx2_1 : ∀ i : grid2.Coords, EltTy.bits .f32 = 32 ∨ (Rect.block (s := S75000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S75000x128.size a
  hwx2_2 : ∀ i : grid2.Coords, EltTy.bits .f32 = 32 ∨ (Rect.block (s := S75000x128) S5000x128.size (cc2_transform_2 i) (hinb2_2 i)).WholeWords (EltTy.packing .f32)

variable [Facts₀]

def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v35) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v54) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where
  halias0_2 : Pipeline.Aliased win0 0 2
  halias1_2 : Pipeline.Aliased win1 0 2
  halias2_2 : Pipeline.Aliased win2 0 2

variable [Facts]
-- ==== ReferenceIdeal.lean ====
abbrev S2x2000000 : Shape := ⟨2, ![2, 2000000]⟩
abbrev S2000000 : Shape := ⟨1, ![2000000]⟩
abbrev S100000x64 : Shape := ⟨2, ![100000, 64]⟩
abbrev S50000x64 : Shape := ⟨2, ![50000, 64]⟩
abbrev S1x2000000 : Shape := ⟨2, ![1, 2000000]⟩
abbrev S150000x64 : Shape := ⟨2, ![150000, 64]⟩
abbrev S_ : Shape := ⟨0, ![]⟩
abbrev S2000000x1 : Shape := ⟨2, ![2000000, 1]⟩
abbrev S2000000x64 : Shape := ⟨2, ![2000000, 64]⟩

abbrev nBuf : Space → Nat
  | .hbm => 65
  | .vmem => 0
  | .smem => 0
  | _ => 0

abbrev bufTy : (tb : Table) → Fin (tcTables nBuf tb) → BufTy
  | .hbm, ⟨0, _⟩ => ⟨S2x2000000, .i32⟩
  | .hbm, ⟨1, _⟩ => ⟨S2000000, .f32⟩
  | .hbm, ⟨2, _⟩ => ⟨S100000x64, .f32⟩
  | .hbm, ⟨3, _⟩ => ⟨S50000x64, .f32⟩
  | .hbm, ⟨4, _⟩ => ⟨S1x2000000, .i32⟩
  | .hbm, ⟨5, _⟩ => ⟨S2000000, .i32⟩
  | .hbm, ⟨6, _⟩ => ⟨S1x2000000, .i32⟩
  | .hbm, ⟨7, _⟩ => ⟨S2000000, .i32⟩
  | .hbm, ⟨8, _⟩ => ⟨S150000x64, .f32⟩
  | .hbm, ⟨9, _⟩ => ⟨S_, .i32⟩
  | .hbm, ⟨10, _⟩ => ⟨S2000000, .i32⟩
  | .hbm, ⟨11, _⟩ => ⟨S2000000, .i1⟩
  | .hbm, ⟨12, _⟩ => ⟨S_, .i32⟩
  | .hbm, ⟨13, _⟩ => ⟨S2000000, .i32⟩
  | .hbm, ⟨14, _⟩ => ⟨S2000000, .i32⟩
  | .hbm, ⟨15, _⟩ => ⟨S2000000, .i32⟩
  | .hbm, ⟨16, _⟩ => ⟨S2000000x1, .i32⟩
  | .hbm, ⟨17, _⟩ => ⟨S2000000x64, .f32⟩
  | .hbm, ⟨18, _⟩ => ⟨S2000000x1, .f32⟩
  | .hbm, ⟨19, _⟩ => ⟨S2000000x64, .f32⟩
  | .hbm, ⟨20, _⟩ => ⟨S2000000x64, .f32⟩
  | .hbm, ⟨21, _⟩ => ⟨S_, .f32⟩
  | .hbm, ⟨22, _⟩ => ⟨S150000x64, .f32⟩
  | .hbm, ⟨23, _⟩ => ⟨S2000000x1, .i32⟩
  | .hbm, ⟨24, _⟩ => ⟨S150000x64, .f32⟩
  | .hbm, ⟨25, _⟩ => ⟨S150000x64, .f32⟩
  | .hbm, ⟨26, _⟩ => ⟨S_, .i32⟩
  | .hbm, ⟨27, _⟩ => ⟨S2000000, .i32⟩
  | .hbm, ⟨28, _⟩ => ⟨S2000000, .i1⟩
  | .hbm, ⟨29, _⟩ => ⟨S_, .i32⟩
  | .hbm, ⟨30, _⟩ => ⟨S2000000, .i32⟩
  | .hbm, ⟨31, _⟩ => ⟨S2000000, .i32⟩
  | .hbm, ⟨32, _⟩ => ⟨S2000000, .i32⟩
  | .hbm, ⟨33, _⟩ => ⟨S2000000x1, .i32⟩
  | .hbm, ⟨34, _⟩ => ⟨S2000000x64, .f32⟩
  | .hbm, ⟨35, _⟩ => ⟨S2000000x1, .f32⟩
  | .hbm, ⟨36, _⟩ => ⟨S2000000x64, .f32⟩
  | .hbm, ⟨37, _⟩ => ⟨S2000000x64, .f32⟩
  | .hbm, ⟨38, _⟩ => ⟨S_, .f32⟩
  | .hbm, ⟨39, _⟩ => ⟨S150000x64, .f32⟩
  | .hbm, ⟨40, _⟩ => ⟨S2000000x1, .i32⟩
  | .hbm, ⟨41, _⟩ => ⟨S150000x64, .f32⟩
  | .hbm, ⟨42, _⟩ => ⟨S150000x64, .f32⟩
  | .hbm, ⟨43, _⟩ => ⟨S_, .i32⟩
  | .hbm, ⟨44, _⟩ => ⟨S2000000, .i32⟩
  | .hbm, ⟨45, _⟩ => ⟨S2000000, .i1⟩
  | .hbm, ⟨46, _⟩ => ⟨S_, .i32⟩
  | .hbm, ⟨47, _⟩ => ⟨S2000000, .i32⟩
  | .hbm, ⟨48, _⟩ => ⟨S2000000, .i32⟩
  | .hbm, ⟨49, _⟩ => ⟨S2000000, .i32⟩
  | .hbm, ⟨50, _⟩ => ⟨S2000000x1, .i32⟩
  | .hbm, ⟨51, _⟩ => ⟨S2000000x64, .f32⟩
  | .hbm, ⟨52, _⟩ => ⟨S2000000x1, .f32⟩
  | .hbm, ⟨53, _⟩ => ⟨S2000000x64, .f32⟩
  | .hbm, ⟨54, _⟩ => ⟨S2000000x64, .f32⟩
  | .hbm, ⟨55, _⟩ => ⟨S_, .f32⟩
  | .hbm, ⟨56, _⟩ => ⟨S150000x64, .f32⟩
  | .hbm, ⟨57, _⟩ => ⟨S2000000x1, .i32⟩
  | .hbm, ⟨58, _⟩ => ⟨S150000x64, .f32⟩
  | .hbm, ⟨59, _⟩ => ⟨S150000x64, .f32⟩
  | .hbm, ⟨60, _⟩ => ⟨S_, .f32⟩
  | .hbm, ⟨61, _⟩ => ⟨S150000x64, .f32⟩
  | .hbm, ⟨62, _⟩ => ⟨S150000x64, .f32⟩
  | .hbm, ⟨63, _⟩ => ⟨S100000x64, .f32⟩
  | .hbm, ⟨64, _⟩ => ⟨S50000x64, .f32⟩
  | _, _ => ⟨S2x2000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_4 : Ref sig .tc := ⟨.hbm, 43, rfl⟩
abbrev main_v33 : Ref sig .tc := ⟨.hbm, 44, rfl⟩
abbrev main_v34 : Ref sig .tc := ⟨.hbm, 45, rfl⟩
abbrev main_c_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  concatenates_S100000x64_S50000x64_S150000x64_d0 : Shape.Concatenates [S100000x64, S50000x64] S150000x64 0
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000x1_S2000000x64_0_1 : S2000000x1.BroadcastsInDim S2000000x64 (![0, 1] : Fin 2 → Fin S2000000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1

variable [Facts₀]

def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf

class Facts : Prop extends Facts₀ where

variable [Facts]
-- ==== Proof.Boundary.lean ====
/-
  The kernel program's run with its two results read off the last boundary.

  @main is four stretches of host operations around three accumulate calls. Along a run the contents of every
  buffer that outlives a call are known at each boundary: the launch memory, then each stretch's operations applied in
  order, then each call's arrays at what its write-backs leave. Every weakly fair execution terminates with every such
  buffer at the last boundary's contents; here that is stated for the two result buffers beside the four arguments.
-/
import proofs.«146213_j12257836662828_2_alg».proof.Proof.Gen.KernelIdeal.Frame

set_option maxRecDepth 16384

noncomputable section

namespace Cert.KernelIdeal.Boundary

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with both result buffers at the contents the
    last boundary gives them and the arguments as launched. -/
theorem run_last : θ_run defs (onTc (τ := τ) (main (F := F))) ⟨m, fun _ => 0, ρ⟩ (fun r => ∀ c : Dev nD,
      r.2.mem ((c.tc : Thread nD τ).loc main_v56) = W7 m ρ c (Proc.devRef .tc main_v56)
      ∧ r.2.mem ((c.tc : Thread nD τ).loc main_v57) = W7 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v56 (by decide)),
       h c _ (mem_uc main_v57 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩)

end Cert.KernelIdeal.Boundary

end
-- ==== Proof.Accumulate.lean ====
/-
  The three accumulate calls, each read as one whole-array function.

  Each call runs over a 75000×128 view of the node table in fifteen blocks of 5000 rows; at a block the body adds the
  accumulator's block and the layer's block entry by entry and multiplies by a constant (1 in the first two calls, 1/4 in
  the last). The three windows of a call sit on the same rows at every grid point, the blocks of the output tile its
  array, so after the call the output array is, index by index, (acc + x) · constant of the two input arrays as the
  call found them.
-/
import proofs.«146213_j12257836662828_2_alg».proof.Proof.Gen.KernelIdeal.Frame
import Idealize.ShloMosaic.Lib.Pipeline.Value

set_option maxRecDepth 16384

noncomputable section

namespace Cert.KernelIdeal.Accumulate

open Cert.KernelIdeal Cert.KernelIdeal.Gen Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Entry by entry, the sum of two 75000×128 arrays times the constant whose f32 word is `k`. -/
def sumScaled (k : BitVec 32) (a b : S75000x128.Idx → Elt F .f32) : S75000x128.Idx → Elt F .f32 :=
  fun i => FloatOps.mulf (FloatOps.addf (a i) (b i)) (Scalar.ofBits .f32 k)

/-! ## Region 0: the accumulator plus the layer's output -/

/-- The body's stored value: entry by entry the sum of the two loaded blocks times the constant. -/
theorem pay0 (x0 x1 : Vec F S5000x128 .f32) :
    k0_pay1 x0 x1 = fun j => FloatOps.mulf (FloatOps.addf (x0 j) (x1 j)) (Scalar.ofBits .f32 0x3F800000#32) := by
  unfold k0_pay1
  simp only [shapeCast_self]
  rfl

/-- Over the grid the three windows move together: block `t` of each is rows `5000·t … 5000·t + 4999`, all 128 columns. -/
theorem rows0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the scaled sum of the two input arrays as the region finds them. -/
theorem flushed0 (c : Dev nD) (t : Fin cfg0.N) :
    (dat0 V c).flushed 2 t
      = ((cfg0.win 2).blk t).view.read (Elt F) (sumScaled 0x3F800000#32 (V c main_v18) (V c main_v19)) := by
  show (cfg0.win 2).cut (grid0.coords t) ((dat0 V c).after 2 t) = _
  rw [after0_2]
  unfold out0_2
  rw [View.canon_unit_zero hz]
  simp only [View.ld_unit_zero (S := S5000x128) hz]
  rw [pay0]
  obtain ⟨e0, e1, e2, e3, e4, e5⟩ := rows0 t
  funext j
  show FloatOps.mulf (FloatOps.addf (V c main_v18 (((cfg0.win 0).blk t).view.emb j)) (V c main_v19 (((cfg0.win 1).blk t).view.emb j))) _
    = FloatOps.mulf (FloatOps.addf (V c main_v18 (((cfg0.win 2).blk t).view.emb j)) (V c main_v19 (((cfg0.win 2).blk t).view.emb j))) _
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 128 + 1 * (j 1).val = win0_2.index t (1 : Fin 2) * 128 + 1 * (j 1).val; omega
  rw [h0, h1]

/-- An index of the output array lies in point `t`'s block iff each coordinate lies in the block's range on its axis. -/
theorem inBlock0 (t : Fin cfg0.N) (i : S75000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v20).slice (win0_2.rect t)).set ↔ _
  rw [View.set_slice_whole, Rect.mem_set_unit]
  exact Iff.rfl

/-- The fifteen blocks tile the array: row `r` lies in the block of point `r / 5000`. -/
theorem tiled0 (i : S75000x128.Idx) :
    ∃ t : Fin cfg0.N, (cfg0.win 2).flush t = true ∧ i ∈ ((cfg0.win 2).blk t).view.set := by
  have hi0 : (i 0).val < 75000 := (i 0).isLt
  have hi1 : (i 1).val < 128 := (i 1).isLt
  let t : Fin cfg0.N := ⟨(i 0).val / 5000, by show (i 0).val / 5000 < 15; omega⟩
  obtain ⟨e0, e1, e2, e3, e4, e5⟩ := rows0 t
  have ht : t.val = (i 0).val / 5000 := rfl
  refine ⟨t, flush0_2 t, ?_⟩
  rw [inBlock0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After region 0 its output array holds the scaled sum of the two input arrays, whatever they held at entry. -/
theorem whole0 (c : Dev nD) :
    (dat0 V c).arrAt 2 cfg0.N = sumScaled 0x3F800000#32 (V c main_v18) (V c main_v19) :=
  (dat0 V c).arrAt_eq_of_cover 2 _ (fun t _ => flushed0 V c t) tiled0

/-! ## Region 1: the accumulator plus the layer's output -/

/-- The body's stored value: entry by entry the sum of the two loaded blocks times the constant. -/
theorem pay1 (x0 x1 : Vec F S5000x128 .f32) :
    k1_pay1 x0 x1 = fun j => FloatOps.mulf (FloatOps.addf (x0 j) (x1 j)) (Scalar.ofBits .f32 0x3F800000#32) := by
  unfold k1_pay1
  simp only [shapeCast_self]
  rfl

/-- Over the grid the three windows move together: block `t` of each is rows `5000·t … 5000·t + 4999`, all 128 columns. -/
theorem rows1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the scaled sum of the two input arrays as the region finds them. -/
theorem flushed1 (c : Dev nD) (t : Fin cfg1.N) :
    (dat1 V c).flushed 2 t
      = ((cfg1.win 2).blk t).view.read (Elt F) (sumScaled 0x3F800000#32 (V c main_v35) (V c main_v36)) := by
  show (cfg1.win 2).cut (grid1.coords t) ((dat1 V c).after 2 t) = _
  rw [after1_2]
  unfold out1_2
  rw [View.canon_unit_zero hz]
  simp only [View.ld_unit_zero (S := S5000x128) hz]
  rw [pay1]
  obtain ⟨e0, e1, e2, e3, e4, e5⟩ := rows1 t
  funext j
  show FloatOps.mulf (FloatOps.addf (V c main_v35 (((cfg1.win 0).blk t).view.emb j)) (V c main_v36 (((cfg1.win 1).blk t).view.emb j))) _
    = FloatOps.mulf (FloatOps.addf (V c main_v35 (((cfg1.win 2).blk t).view.emb j)) (V c main_v36 (((cfg1.win 2).blk t).view.emb j))) _
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb j = ((cfg1.win 2).blk t).view.emb j := by
    funext a; apply Fin.ext
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 128 + 1 * (j 1).val = win1_2.index t (1 : Fin 2) * 128 + 1 * (j 1).val; omega
  rw [h0, h1]

/-- An index of the output array lies in point `t`'s block iff each coordinate lies in the block's range on its axis. -/
theorem inBlock1 (t : Fin cfg1.N) (i : S75000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v37).slice (win1_2.rect t)).set ↔ _
  rw [View.set_slice_whole, Rect.mem_set_unit]
  exact Iff.rfl

/-- The fifteen blocks tile the array: row `r` lies in the block of point `r / 5000`. -/
theorem tiled1 (i : S75000x128.Idx) :
    ∃ t : Fin cfg1.N, (cfg1.win 2).flush t = true ∧ i ∈ ((cfg1.win 2).blk t).view.set := by
  have hi0 : (i 0).val < 75000 := (i 0).isLt
  have hi1 : (i 1).val < 128 := (i 1).isLt
  let t : Fin cfg1.N := ⟨(i 0).val / 5000, by show (i 0).val / 5000 < 15; omega⟩
  obtain ⟨e0, e1, e2, e3, e4, e5⟩ := rows1 t
  have ht : t.val = (i 0).val / 5000 := rfl
  refine ⟨t, flush1_2 t, ?_⟩
  rw [inBlock1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After region 1 its output array holds the scaled sum of the two input arrays, whatever they held at entry. -/
theorem whole1 (c : Dev nD) :
    (dat1 V c).arrAt 2 cfg1.N = sumScaled 0x3F800000#32 (V c main_v35) (V c main_v36) :=
  (dat1 V c).arrAt_eq_of_cover 2 _ (fun t _ => flushed1 V c t) tiled1

/-! ## Region 2: the accumulator plus the layer's output, scaled by a quarter -/

/-- The body's stored value: entry by entry the sum of the two loaded blocks times the constant. -/
theorem pay2 (x0 x1 : Vec F S5000x128 .f32) :
    k2_pay1 x0 x1 = fun j => FloatOps.mulf (FloatOps.addf (x0 j) (x1 j)) (Scalar.ofBits .f32 0x3E800000#32) := by
  unfold k2_pay1
  simp only [shapeCast_self]
  rfl

/-- Over the grid the three windows move together: block `t` of each is rows `5000·t … 5000·t + 4999`, all 128 columns. -/
theorem rows2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the scaled sum of the two input arrays as the region finds them. -/
theorem flushed2 (c : Dev nD) (t : Fin cfg2.N) :
    (dat2 V c).flushed 2 t
      = ((cfg2.win 2).blk t).view.read (Elt F) (sumScaled 0x3E800000#32 (V c main_v52) (V c main_v53)) := by
  show (cfg2.win 2).cut (grid2.coords t) ((dat2 V c).after 2 t) = _
  rw [after2_2]
  unfold out2_2
  rw [View.canon_unit_zero hz]
  simp only [View.ld_unit_zero (S := S5000x128) hz]
  rw [pay2]
  obtain ⟨e0, e1, e2, e3, e4, e5⟩ := rows2 t
  funext j
  show FloatOps.mulf (FloatOps.addf (V c main_v52 (((cfg2.win 0).blk t).view.emb j)) (V c main_v53 (((cfg2.win 1).blk t).view.emb j))) _
    = FloatOps.mulf (FloatOps.addf (V c main_v52 (((cfg2.win 2).blk t).view.emb j)) (V c main_v53 (((cfg2.win 2).blk t).view.emb j))) _
  have h0 : ((cfg2.win 0).blk t).view.emb j = ((cfg2.win 2).blk t).view.emb j := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb j = ((cfg2.win 2).blk t).view.emb j := by
    funext a; apply Fin.ext
    match a with
    | ⟨0, _⟩ => show win2_1.index t (0 : Fin 2) * 5000 + 1 * (j 0).val = win2_2.index t (0 : Fin 2) * 5000 + 1 * (j 0).val; omega
    | ⟨1, _⟩ => show win2_1.index t (1 : Fin 2) * 128 + 1 * (j 1).val = win2_2.index t (1 : Fin 2) * 128 + 1 * (j 1).val; omega
  rw [h0, h1]

/-- An index of the output array lies in point `t`'s block iff each coordinate lies in the block's range on its axis. -/
theorem inBlock2 (t : Fin cfg2.N) (i : S75000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v54).slice (win2_2.rect t)).set ↔ _
  rw [View.set_slice_whole, Rect.mem_set_unit]
  exact Iff.rfl

/-- The fifteen blocks tile the array: row `r` lies in the block of point `r / 5000`. -/
theorem tiled2 (i : S75000x128.Idx) :
    ∃ t : Fin cfg2.N, (cfg2.win 2).flush t = true ∧ i ∈ ((cfg2.win 2).blk t).view.set := by
  have hi0 : (i 0).val < 75000 := (i 0).isLt
  have hi1 : (i 1).val < 128 := (i 1).isLt
  let t : Fin cfg2.N := ⟨(i 0).val / 5000, by show (i 0).val / 5000 < 15; omega⟩
  obtain ⟨e0, e1, e2, e3, e4, e5⟩ := rows2 t
  have ht : t.val = (i 0).val / 5000 := rfl
  refine ⟨t, flush2_2 t, ?_⟩
  rw [inBlock2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After region 2 its output array holds the scaled sum of the two input arrays, whatever they held at entry. -/
theorem whole2 (c : Dev nD) :
    (dat2 V c).arrAt 2 cfg2.N = sumScaled 0x3E800000#32 (V c main_v52) (V c main_v53) :=
  (dat2 V c).arrAt_eq_of_cover 2 _ (fun t _ => flushed2 V c t) tiled2

end Cert.KernelIdeal.Accumulate

end
-- ==== Proof.Layers.lean ====
/-
  The propagation both programs share, named once.

  The 150000×64 node table is the user rows over the item rows. One layer reads, for every edge, the source node's row
  (a negative source index first moved up by 150000), scales it by the edge's weight, and adds it into the destination
  node's row of a zero table. The model's output is the mean of the table and its first three layers, cut back into the
  user rows and the item rows. The definitions below spell these with the host operations of the printed reference; no
  proof ever opens the gather or the scatter.
-/
import proofs.«146213_j12257836662828_2_alg».proof.Proof.Gen.ReferenceIdeal

noncomputable section

namespace Cert.ReferenceIdeal.Layers

open Cert.ReferenceIdeal Cert.ReferenceIdeal.Gen Idealize.ShloMosaic Idealize.ShloMosaic.TcCoe

variable {F : FTy → Type} [FloatOps F]

/-- Row `r` (0: destinations, 1: sources) of the 2×E edge list as a vector of E node indices. -/
def dsts (e : Vec F S2x2000000 .i32) : Vec F S2000000 .i32 :=
  shapeCast _ (extractStridedSlice S1x2000000 ![0, 0] e slices_S2x2000000_S1x2000000_0_0) shapeCasts_S1x2000000_S2000000

def srcs (e : Vec F S2x2000000 .i32) : Vec F S2000000 .i32 :=
  shapeCast _ (extractStridedSlice S1x2000000 ![1, 0] e slices_S2x2000000_S1x2000000_1_0) shapeCasts_S1x2000000_S2000000

/-- The node table: user rows, then item rows. -/
def table (u : Vec F S100000x64 .f32) (it : Vec F S50000x64 .f32) : Vec F S150000x64 .f32 :=
  concatenate S150000x64 0 [⟨S100000x64, u⟩, ⟨S50000x64, it⟩] concatenates_S100000x64_S50000x64_S150000x64_d0

/-- One layer: every edge's source row (a negative index wrapped by 150000), times the edge's weight, added into the
    destination row of a zero table. -/
def layer (row col : Vec F S2000000 .i32) (w : Vec F S2000000 .f32) (x : Vec F S150000x64 .f32) : Vec F S150000x64 .f32 :=
  Host.scatterAdd scatter_S150000x64_S2000000x1_S2000000x64_1_0_0_1
    (broadcastInDim S150000x64 ![] bcast_S_S150000x64 (constant S_ .f32 0x00000000#32))
    (broadcastInDim S2000000x1 ![0] bcast_S2000000_S2000000x1_0 row)
    (mulf (Host.gather gather_S150000x64_S2000000x1_S2000000x64_1_0_n_n_0_1_164 x
        (broadcastInDim S2000000x1 ![0] bcast_S2000000_S2000000x1_0
          (select (cmpi .slt col (broadcastInDim S2000000 ![] bcast_S_S2000000 (constantI S_ 32 0#32)))
            (addi col (broadcastInDim S2000000 ![] bcast_S_S2000000 (constantI S_ 32 150000#32))) col)))
      (broadcastInDim S2000000x64 ![0, 1] bcast_S2000000x1_S2000000x64_0_1 (broadcastInDim S2000000x1 ![0] bcast_S2000000_S2000000x1_0 w)))

/-- The mean of four tables as the reference takes it: the running sum, then the quotient by 4. -/
def mean4 (x0 x1 x2 x3 : Vec F S150000x64 .f32) : Vec F S150000x64 .f32 :=
  Host.divf (addf (addf (addf x0 x1) x2) x3) (broadcastInDim S150000x64 ![] bcast_S_S150000x64 (constant S_ .f32 0x40800000#32))

/-- The mean of the table and its first three layers. -/
def meanOfLayers (e : Vec F S2x2000000 .i32) (w : Vec F S2000000 .f32) (u : Vec F S100000x64 .f32) (it : Vec F S50000x64 .f32) :
    Vec F S150000x64 .f32 :=
  mean4 (table u it) (layer (dsts e) (srcs e) w (table u it))
    (layer (dsts e) (srcs e) w (layer (dsts e) (srcs e) w (table u it)))
    (layer (dsts e) (srcs e) w (layer (dsts e) (srcs e) w (layer (dsts e) (srcs e) w (table u it))))

/-- Its user rows and its item rows. -/
def userRows (x : Vec F S150000x64 .f32) : Vec F S100000x64 .f32 :=
  extractStridedSlice S100000x64 ![0, 0] x slices_S150000x64_S100000x64_0_0

def itemRows (x : Vec F S150000x64 .f32) : Vec F S50000x64 .f32 :=
  extractStridedSlice S50000x64 ![100000, 0] x slices_S150000x64_S50000x64_100000_0

end Cert.ReferenceIdeal.Layers

end
-- ==== Proof.Values.lean ====
/-
  The kernel program's two results as functions of its four arguments.

  Read one stretch of host operations at a time, from whatever the buffers held when the stretch began: the first
  stretch cuts the edge list into destinations and sources, stacks the node table, computes the first layer and views
  table and layer as 75000×128; each later stretch views the previous call's output back as 150000×64, computes the next
  layer from the previous one, and views both as 75000×128 again; the last stretch views the third call's output back and
  cuts it into user rows and item rows. Between stretches a call replaces its output array by the scaled sum of its two
  inputs and leaves every other buffer alone. Chained, the results are the user rows and the item rows of three
  accumulate calls over the table and its first three layers.
-/
import proofs.«146213_j12257836662828_2_alg».proof.Proof.Boundary
import proofs.«146213_j12257836662828_2_alg».proof.Proof.Accumulate
import proofs.«146213_j12257836662828_2_alg».proof.Proof.Layers
import Idealize.ShloMosaic.Lib.StableHlo.Run

set_option maxRecDepth 16384

noncomputable section

namespace Cert.KernelIdeal.Boundary

open Cert.KernelIdeal Cert.KernelIdeal.Gen Cert.KernelIdeal.Accumulate
open Idealize.ShloMosaic Idealize.ShloMosaic.TcCoe Idealize.SL.Sem Idealize.ShloMosaic.StableHlo
open Cert.ReferenceIdeal.Layers

variable {F : FTy → Type} [FloatOps F]

/-! ## Each stretch, from any contents `W` at its start -/

section Stretches
variable (W : Valuation τ sig (Elt F))

/-! ### Before the first call: the edge list cut in two, the table, the first layer, both in the flat view -/

theorem first_dsts : after hostOps0 W (Proc.devRef .tc main_v1) = dsts (W (Proc.devRef .tc main_arg0)) := by
  after_results; rfl
theorem first_srcs : after hostOps0 W (Proc.devRef .tc main_v3) = srcs (W (Proc.devRef .tc main_arg0)) := by
  after_results; rfl
theorem first_weights : after hostOps0 W (Proc.devRef .tc main_arg1) = W (Proc.devRef .tc main_arg1) := by
  after_results
set_option maxHeartbeats 4000000 in
theorem first_layer : after hostOps0 W (Proc.devRef .tc main_v17)
    = layer (dsts (W (Proc.devRef .tc main_arg0))) (srcs (W (Proc.devRef .tc main_arg0))) (W (Proc.devRef .tc main_arg1))
        (table (W (Proc.devRef .tc main_arg2)) (W (Proc.devRef .tc main_arg3))) := by
  after_results_simp <;> rfl
theorem first_acc : after hostOps0 W (Proc.devRef .tc main_v18)
    = shapeCast S75000x128 (table (W (Proc.devRef .tc main_arg2)) (W (Proc.devRef .tc main_arg3))) shapeCasts_S150000x64_S75000x128 := by
  after_results; rfl
set_option maxHeartbeats 4000000 in
theorem first_x : after hostOps0 W (Proc.devRef .tc main_v19)
    = shapeCast S75000x128 (layer (dsts (W (Proc.devRef .tc main_arg0))) (srcs (W (Proc.devRef .tc main_arg0))) (W (Proc.devRef .tc main_arg1))
        (table (W (Proc.devRef .tc main_arg2)) (W (Proc.devRef .tc main_arg3)))) shapeCasts_S150000x64_S75000x128 := by
  after_results_simp <;> rfl

/-! ### Between the first and the second call: the next layer from the previous one -/

set_option maxHeartbeats 4000000 in
theorem second_dsts : after hostOps1 W (Proc.devRef .tc main_v1) = W (Proc.devRef .tc main_v1) := by
  after_results_simp
set_option maxHeartbeats 4000000 in
theorem second_srcs : after hostOps1 W (Proc.devRef .tc main_v3) = W (Proc.devRef .tc main_v3) := by
  after_results_simp
set_option maxHeartbeats 4000000 in
theorem second_weights : after hostOps1 W (Proc.devRef .tc main_arg1) = W (Proc.devRef .tc main_arg1) := by
  after_results_simp
set_option maxHeartbeats 4000000 in
theorem second_layer : after hostOps1 W (Proc.devRef .tc main_v34)
    = layer (W (Proc.devRef .tc main_v1)) (W (Proc.devRef .tc main_v3)) (W (Proc.devRef .tc main_arg1)) (W (Proc.devRef .tc main_v17)) := by
  after_results_simp <;> rfl
set_option maxHeartbeats 4000000 in
theorem second_acc : after hostOps1 W (Proc.devRef .tc main_v35)
    = shapeCast S75000x128 (shapeCast S150000x64 (W (Proc.devRef .tc main_v20)) shapeCasts_S75000x128_S150000x64) shapeCasts_S150000x64_S75000x128 := by
  after_results_simp <;> rfl
set_option maxHeartbeats 4000000 in
theorem second_x : after hostOps1 W (Proc.devRef .tc main_v36)
    = shapeCast S75000x128 (layer (W (Proc.devRef .tc main_v1)) (W (Proc.devRef .tc main_v3)) (W (Proc.devRef .tc main_arg1)) (W (Proc.devRef .tc main_v17))) shapeCasts_S150000x64_S75000x128 := by
  after_results_simp <;> rfl

/-! ### Between the second and the third call -/

set_option maxHeartbeats 4000000 in
theorem third_acc : after hostOps2 W (Proc.devRef .tc main_v52)
    = shapeCast S75000x128 (shapeCast S150000x64 (W (Proc.devRef .tc main_v37)) shapeCasts_S75000x128_S150000x64) shapeCasts_S150000x64_S75000x128 := by
  after_results_simp <;> rfl
set_option maxHeartbeats 4000000 in
theorem third_x : after hostOps2 W (Proc.devRef .tc main_v53)
    = shapeCast S75000x128 (layer (W (Proc.devRef .tc main_v1)) (W (Proc.devRef .tc main_v3)) (W (Proc.devRef .tc main_arg1)) (W (Proc.devRef .tc main_v34))) shapeCasts_S150000x64_S75000x128 := by
  after_results_simp <;> rfl

/-! ### After the third call: back to 150000×64, then the two cuts -/

theorem last_users : after hostOps3 W (Proc.devRef .tc main_v56)
    = userRows (shapeCast S150000x64 (W (Proc.devRef .tc main_v54)) shapeCasts_S75000x128_S150000x64) := by
  after_results; rfl
theorem last_items : after hostOps3 W (Proc.devRef .tc main_v57)
    = itemRows (shapeCast S150000x64 (W (Proc.devRef .tc main_v54)) shapeCasts_S75000x128_S150000x64) := by
  after_results; rfl

end Stretches

/-! ## The boundaries chained -/

variable (m : (ℓ : Loc nD τ sig) → Buf (Elt F) ℓ) (ρ : Dev nD → PrngReg) (c : Dev nD)

/-- The table and its first three layers, from the launch memory. -/
def x0 : Vec F S150000x64 .f32 := table (m ((c : Thread nD τ).loc main_arg2)) (m ((c : Thread nD τ).loc main_arg3))
def step (x : Vec F S150000x64 .f32) : Vec F S150000x64 .f32 :=
  layer (dsts (m ((c : Thread nD τ).loc main_arg0))) (srcs (m ((c : Thread nD τ).loc main_arg0))) (m ((c : Thread nD τ).loc main_arg1)) x

/-- The running sum after each call, in the flat view. -/
def acc1 : Vec F S75000x128 .f32 :=
  sumScaled 0x3F800000#32 (shapeCast S75000x128 (x0 m c) shapeCasts_S150000x64_S75000x128)
    (shapeCast S75000x128 (step m c (x0 m c)) shapeCasts_S150000x64_S75000x128)
def acc2 : Vec F S75000x128 .f32 :=
  sumScaled 0x3F800000#32
    (shapeCast S75000x128 (shapeCast S150000x64 (acc1 m c) shapeCasts_S75000x128_S150000x64) shapeCasts_S150000x64_S75000x128)
    (shapeCast S75000x128 (step m c (step m c (x0 m c))) shapeCasts_S150000x64_S75000x128)
def acc3 : Vec F S75000x128 .f32 :=
  sumScaled 0x3E800000#32
    (shapeCast S75000x128 (shapeCast S150000x64 (acc2 m c) shapeCasts_S75000x128_S150000x64) shapeCasts_S150000x64_S75000x128)
    (shapeCast S75000x128 (step m c (step m c (step m c (x0 m c)))) shapeCasts_S150000x64_S75000x128)

/-! ### At the first call's exit -/

theorem exit1_dsts : W2 m ρ c (Proc.devRef .tc main_v1) = dsts (m ((c : Thread nD τ).loc main_arg0)) :=
  (W2_of_ne m ρ c main_v1 (by decide)).trans (first_dsts (W0 m ρ c))
theorem exit1_srcs : W2 m ρ c (Proc.devRef .tc main_v3) = srcs (m ((c : Thread nD τ).loc main_arg0)) :=
  (W2_of_ne m ρ c main_v3 (by decide)).trans (first_srcs (W0 m ρ c))
theorem exit1_weights : W2 m ρ c (Proc.devRef .tc main_arg1) = m ((c : Thread nD τ).loc main_arg1) :=
  (W2_of_ne m ρ c main_arg1 (by decide)).trans (first_weights (W0 m ρ c))
theorem exit1_layer : W2 m ρ c (Proc.devRef .tc main_v17) = step m c (x0 m c) :=
  (W2_of_ne m ρ c main_v17 (by decide)).trans (first_layer (W0 m ρ c))
theorem exit1_acc : W2 m ρ c (Proc.devRef .tc main_v20) = acc1 m c :=
  (W2_arr m ρ c 2).trans ((whole0 (V1 m ρ) c).trans
    (congrArg₂ (sumScaled 0x3F800000#32) (first_acc (W0 m ρ c)) (first_x (W0 m ρ c))))

/-! ### At the second call's exit -/

theorem exit2_dsts : W4 m ρ c (Proc.devRef .tc main_v1) = dsts (m ((c : Thread nD τ).loc main_arg0)) :=
  (W4_of_ne m ρ c main_v1 (by decide)).trans ((second_dsts (W2 m ρ c)).trans (exit1_dsts m ρ c))
theorem exit2_srcs : W4 m ρ c (Proc.devRef .tc main_v3) = srcs (m ((c : Thread nD τ).loc main_arg0)) :=
  (W4_of_ne m ρ c main_v3 (by decide)).trans ((second_srcs (W2 m ρ c)).trans (exit1_srcs m ρ c))
theorem exit2_weights : W4 m ρ c (Proc.devRef .tc main_arg1) = m ((c : Thread nD τ).loc main_arg1) :=
  (W4_of_ne m ρ c main_arg1 (by decide)).trans ((second_weights (W2 m ρ c)).trans (exit1_weights m ρ c))
theorem entry2_layer : W3 m ρ c (Proc.devRef .tc main_v34) = step m c (step m c (x0 m c)) :=
  (second_layer (W2 m ρ c)).trans (by rw [exit1_dsts, exit1_srcs, exit1_weights, exit1_layer]; rfl)
theorem exit2_layer : W4 m ρ c (Proc.devRef .tc main_v34) = step m c (step m c (x0 m c)) :=
  (W4_of_ne m ρ c main_v34 (by decide)).trans (entry2_layer m ρ c)
theorem entry2_acc : W3 m ρ c (Proc.devRef .tc main_v35)
    = shapeCast S75000x128 (shapeCast S150000x64 (acc1 m c) shapeCasts_S75000x128_S150000x64) shapeCasts_S150000x64_S75000x128 :=
  (second_acc (W2 m ρ c)).trans (by rw [exit1_acc])
theorem entry2_x : W3 m ρ c (Proc.devRef .tc main_v36)
    = shapeCast S75000x128 (step m c (step m c (x0 m c))) shapeCasts_S150000x64_S75000x128 :=
  (second_x (W2 m ρ c)).trans (by rw [exit1_dsts, exit1_srcs, exit1_weights, exit1_layer]; rfl)
theorem exit2_acc : W4 m ρ c (Proc.devRef .tc main_v37) = acc2 m c :=
  (W4_arr m ρ c 2).trans ((whole1 (V3 m ρ) c).trans
    (congrArg₂ (sumScaled 0x3F800000#32) (entry2_acc m ρ c) (entry2_x m ρ c)))

/-! ### At the third call's exit, and the results -/

theorem entry3_acc : W5 m ρ c (Proc.devRef .tc main_v52)
    = shapeCast S75000x128 (shapeCast S150000x64 (acc2 m c) shapeCasts_S75000x128_S150000x64) shapeCasts_S150000x64_S75000x128 :=
  (third_acc (W4 m ρ c)).trans (by rw [exit2_acc])
theorem entry3_x : W5 m ρ c (Proc.devRef .tc main_v53)
    = shapeCast S75000x128 (step m c (step m c (step m c (x0 m c)))) shapeCasts_S150000x64_S75000x128 :=
  (third_x (W4 m ρ c)).trans (by rw [exit2_dsts, exit2_srcs, exit2_weights, exit2_layer]; rfl)
theorem exit3_acc : W6 m ρ c (Proc.devRef .tc main_v54) = acc3 m c :=
  (W6_arr m ρ c 2).trans ((whole2 (V5 m ρ) c).trans
    (congrArg₂ (sumScaled 0x3E800000#32) (entry3_acc m ρ c) (entry3_x m ρ c)))

/-- The first result: the user rows of the third running sum viewed back as 150000×64. -/
theorem users_last : W7 m ρ c (Proc.devRef .tc main_v56)
    = userRows (shapeCast S150000x64 (acc3 m c) shapeCasts_S75000x128_S150000x64) :=
  (last_users (W6 m ρ c)).trans (by rw [exit3_acc])
/-- The second result: its item rows. -/
theorem items_last : W7 m ρ c (Proc.devRef .tc main_v57)
    = itemRows (shapeCast S150000x64 (acc3 m c) shapeCasts_S75000x128_S150000x64) :=
  (last_items (W6 m ρ c)).trans (by rw [exit3_acc])

end Cert.KernelIdeal.Boundary

end
-- ==== Proof.MeanLaw.lean ====
/-
  The law that joins the two programs, on the extended reals.

  The kernel keeps the running sum in a 75000×128 view of the node table and adds one layer per call, multiplying by 1 in
  the first two calls and by 1/4 in the last; the reference adds the layers in the table's own 150000×64 shape and
  divides by 4 at the end. Viewing a table as 75000×128 and back is the identity and the sum is taken entry by entry,
  so each call is (acc + x) · constant in the table's own shape. On the extended reals y · 1 = y for every y, and the
  quotient of any y by the real 4 is y · (1/4): no entry needs to be finite.
-/
import proofs.«146213_j12257836662828_2_alg».proof.Proof.Accumulate
import proofs.«146213_j12257836662828_2_alg».proof.Proof.Layers
import Idealize.ShloMosaic.PureOps.Ideal
import Idealize.ShloMosaic.Lib.Pipeline.Value

noncomputable section

namespace Cert.MeanLaw

open Idealize.ShloMosaic Cert.KernelIdeal Cert.KernelIdeal.Accumulate

/-- The f32 words of 1, 1/4 and 4 as extended reals. -/
theorem word_one : Ideal.ofBits .f32 0x3F800000#32 = 1 := by
  simp [Ideal.ofBits, Ideal.ieee, -EReal.coe_mul]; norm_num

theorem word_quarter : Ideal.ofBits .f32 0x3E800000#32 = ((1 / 4 : ℝ) : EReal) := by
  simp [Ideal.ofBits, Ideal.ieee, -EReal.coe_mul]; norm_num

theorem word_four : Ideal.ofBits .f32 0x40800000#32 = ((4 : ℝ) : EReal) := by
  simp [Ideal.ofBits, Ideal.ieee, -EReal.coe_mul]; norm_num

section AnyFloat
variable {F : FTy → Type} [FloatOps F]

/-- A scaled sum taken in the 75000×128 view of two tables, viewed back as 150000×64, is the scaled sum of the tables. -/
theorem unflat_sumScaled (k : BitVec 32) (a b : Vec F S150000x64 .f32)
    (h : S150000x64.ShapeCasts S75000x128) (h' : S75000x128.ShapeCasts S150000x64) :
    shapeCast S150000x64 (sumScaled k (shapeCast S75000x128 a h) (shapeCast S75000x128 b h)) h'
      = fun j => FloatOps.mulf (FloatOps.addf (a j) (b j)) (Scalar.ofBits .f32 k) := by
  funext j
  have ha := congrFun (shapeCast_shapeCast a h h') j
  have hb := congrFun (shapeCast_shapeCast b h h') j
  show FloatOps.mulf (FloatOps.addf (shapeCast S150000x64 (shapeCast S75000x128 a h) h' j)
    (shapeCast S150000x64 (shapeCast S75000x128 b h) h' j)) _ = _
  rw [ha, hb]

end AnyFloat

/-- Three accumulate calls in the flat view, the last one scaling by 1/4, give the reference's mean of the four tables. -/
theorem accumulated_eq_mean (x0 x1 x2 x3 : Vec Ideal S150000x64 .f32)
    (h : S150000x64.ShapeCasts S75000x128) (h' : S75000x128.ShapeCasts S150000x64) :
    shapeCast S150000x64 (sumScaled 0x3E800000#32
        (shapeCast S75000x128 (shapeCast S150000x64 (sumScaled 0x3F800000#32
            (shapeCast S75000x128 (shapeCast S150000x64 (sumScaled 0x3F800000#32
                (shapeCast S75000x128 x0 h) (shapeCast S75000x128 x1 h)) h') h)
            (shapeCast S75000x128 x2 h)) h') h)
        (shapeCast S75000x128 x3 h)) h'
      = Cert.ReferenceIdeal.Layers.mean4 x0 x1 x2 x3 := by
  rw [unflat_sumScaled, unflat_sumScaled, unflat_sumScaled]
  have hs : ∀ b : BitVec 32, Scalar.ofBits (F := Ideal) .f32 b = Ideal.ofBits .f32 b := fun _ => rfl
  funext j
  simp only [Cert.ReferenceIdeal.Layers.mean4, Host.divf, addf, broadcastInDim, constant, Ideal.mulf_def, Ideal.addf_def,
    Ideal.hostDivf_def, Ideal.ofBits_def, hs, word_one, word_quarter, word_four, mul_one,
    Ideal.div_coe (by norm_num : (4 : ℝ) ≠ 0)]

end Cert.MeanLaw

end
-- ==== Proof.Joined.lean ====
/-
  The kernel's results are the reference's: the third running sum, viewed back as 150000×64, is the mean of the table
  and its first three layers (the law of MeanLaw.lean at the kernel's own arrays), so its user rows and item rows are
  the reference's two results.
-/
import proofs.«146213_j12257836662828_2_alg».proof.Proof.Values
import proofs.«146213_j12257836662828_2_alg».proof.Proof.MeanLaw

noncomputable section

namespace Cert.KernelIdeal.Boundary

open Cert.KernelIdeal Cert.KernelIdeal.Gen Cert.KernelIdeal.Accumulate
open Idealize.ShloMosaic Idealize.ShloMosaic.TcCoe Idealize.SL.Sem
open Cert.ReferenceIdeal.Layers

variable (m : (ℓ : Loc nD τ sig) → Buf (Elt Ideal) ℓ) (ρ : Dev nD → PrngReg) (c : Dev nD)

/-- The third running sum in the table's own shape is the mean of the table and its first three layers. -/
theorem acc3_eq_mean : shapeCast S150000x64 (acc3 (F := Ideal) m c) shapeCasts_S75000x128_S150000x64
    = meanOfLayers (m ((c : Thread nD τ).loc main_arg0)) (m ((c : Thread nD τ).loc main_arg1))
        (m ((c : Thread nD τ).loc main_arg2)) (m ((c : Thread nD τ).loc main_arg3)) := by
  unfold acc3 acc2 acc1
  exact Cert.MeanLaw.accumulated_eq_mean _ _ _ _ _ _

theorem users_eq : W7 m ρ c (Proc.devRef .tc main_v56)
    = userRows (meanOfLayers (m ((c : Thread nD τ).loc main_arg0)) (m ((c : Thread nD τ).loc main_arg1))
        (m ((c : Thread nD τ).loc main_arg2)) (m ((c : Thread nD τ).loc main_arg3))) :=
  (users_last m ρ c).trans (congrArg userRows (acc3_eq_mean m c))

theorem items_eq : W7 m ρ c (Proc.devRef .tc main_v57)
    = itemRows (meanOfLayers (m ((c : Thread nD τ).loc main_arg0)) (m ((c : Thread nD τ).loc main_arg1))
        (m ((c : Thread nD τ).loc main_arg2)) (m ((c : Thread nD τ).loc main_arg3))) :=
  (items_last m ρ c).trans (congrArg itemRows (acc3_eq_mean m c))

end Cert.KernelIdeal.Boundary

end
-- ==== Proof.RefValue.lean ====
/-
  The reference's two results as functions of its four arguments: its run's composed term is, operation for operation,
  the user rows and the item rows of the mean of the table and its first three layers.
-/
import proofs.«146213_j12257836662828_2_alg».proof.Proof.Gen.ReferenceIdeal.Run
import proofs.«146213_j12257836662828_2_alg».proof.Proof.Layers

set_option maxRecDepth 16384

noncomputable section

namespace Cert.ReferenceIdeal.RefValue

open Cert.ReferenceIdeal Cert.ReferenceIdeal.Gen Cert.ReferenceIdeal.Layers
open Idealize.ShloMosaic Idealize.ShloMosaic.TcCoe Idealize.SL.Sem

variable {F : FTy → Type} [FloatOps F]

set_option maxHeartbeats 4000000 in
theorem users_eq (m : (ℓ : Loc nD τ sig) → Buf (Elt F) ℓ) (c : Dev nD) :
    Value.res_out0 m c
      = userRows (meanOfLayers (m ((c.tc : Thread nD τ).loc main_arg0)) (m ((c.tc : Thread nD τ).loc main_arg1))
          (m ((c.tc : Thread nD τ).loc main_arg2)) (m ((c.tc : Thread nD τ).loc main_arg3))) := by
  show Value.res_main_v49 m c = _
  unfold Value.res_main_v49
  rfl

set_option maxHeartbeats 4000000 in
theorem items_eq (m : (ℓ : Loc nD τ sig) → Buf (Elt F) ℓ) (c : Dev nD) :
    Value.res_out1 m c
      = itemRows (meanOfLayers (m ((c.tc : Thread nD τ).loc main_arg0)) (m ((c.tc : Thread nD τ).loc main_arg1))
          (m ((c.tc : Thread nD τ).loc main_arg2)) (m ((c.tc : Thread nD τ).loc main_arg3))) := by
  show Value.res_main_v50 m c = _
  unfold Value.res_main_v50
  rfl

end Cert.ReferenceIdeal.RefValue

end
-- ==== Proof.lean ====
/-
  The kernel against its reference: three layers of weighted neighbour sums over a 150000-node graph, averaged with
  the node table.

  Both programs stack the user rows over the item rows, and three times gather every edge's source row, scale it by the
  edge's weight and add it into the destination row of a zero table — the same host operations, in the same order. They
  differ in how the four tables are averaged. The reference adds them one by one and divides by 4. The kernel keeps the
  running sum in a 75000×128 view and, after each layer, runs a call that adds the layer's block to the sum's block,
  fifteen blocks of 5000 rows, multiplying by 1 in the first two calls and by 1/4 in the last.

  The proof reads each call as one whole-array function (Accumulate.lean), reads the kernel's results off the contents
  of the buffers at the boundaries between host stretches and calls (Boundary.lean, Values.lean), reads the reference's
  results off its run (RefValue.lean), and joins them by one law on the extended reals (MeanLaw.lean): viewing a table
  as 75000×128 and back changes nothing, y · 1 = y, and y / 4 = y · (1/4) for every extended real y. No entry has to be
  finite, so the precondition is never opened. The statement lists no rewrite between the kernel and its idealized
  reading (the preservation claim is stated as True), so that conjunct is trivial.
-/
import proofs.«146213_j12257836662828_2_alg».proof.Defs
import proofs.«146213_j12257836662828_2_alg».proof.Proof.Gen.Kernel
import proofs.«146213_j12257836662828_2_alg».proof.Proof.Gen.Kernel.Skeleton
import proofs.«146213_j12257836662828_2_alg».proof.Proof.Gen.Kernel.Launch
import proofs.«146213_j12257836662828_2_alg».proof.Proof.Gen.Kernel.Points
import proofs.«146213_j12257836662828_2_alg».proof.Proof.Gen.Kernel.Frame
import proofs.«146213_j12257836662828_2_alg».proof.Proof.Gen.KernelIdeal
import proofs.«146213_j12257836662828_2_alg».proof.Proof.Gen.KernelIdeal.Skeleton
import proofs.«146213_j12257836662828_2_alg».proof.Proof.Gen.KernelIdeal.Launch
import proofs.«146213_j12257836662828_2_alg».proof.Proof.Gen.KernelIdeal.Points
import proofs.«146213_j12257836662828_2_alg».proof.Proof.Gen.KernelIdeal.Frame
import proofs.«146213_j12257836662828_2_alg».proof.Proof.Gen.ReferenceIdeal
import proofs.«146213_j12257836662828_2_alg».proof.Proof.Gen.ReferenceIdeal.Run
import proofs.«146213_j12257836662828_2_alg».proof.Proof.Gen.Pre_finite_inputs
import proofs.«146213_j12257836662828_2_alg».proof.Proof.Joined
import proofs.«146213_j12257836662828_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is host operations only: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the four arguments both programs end with the user rows and the item rows of the mean
    of the node table and its first three layers. -/
theorem algebraic : Cert.algebraic_KernelIdeal_ReferenceIdeal := by
  intro m ρ m' ρ' _ hagree
  refine ⟨fun c => Cert.ReferenceIdeal.Layers.userRows (Cert.ReferenceIdeal.Layers.meanOfLayers
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))),
    fun c => Cert.ReferenceIdeal.Layers.itemRows (Cert.ReferenceIdeal.Layers.meanOfLayers
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))), ?_, ?_⟩
  · exact (θ_run Cert.KernelIdeal.defs _ _).mono
      (fun r h c => ⟨(h c).1.trans (Cert.KernelIdeal.Boundary.users_eq m ρ c),
        (h c).2.1.trans (Cert.KernelIdeal.Boundary.items_eq m ρ c), (h c).2.2⟩)
      (Cert.KernelIdeal.Boundary.run_last (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · refine (Cert.ReferenceIdeal.RefValue.users_eq m' c).trans ?_
      rw [(hagree c).1, (hagree c).2.1, (hagree c).2.2.1, (hagree c).2.2.2]
    · refine (Cert.ReferenceIdeal.RefValue.items_eq m' c).trans ?_
      rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
